-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000 : S_.BroadcastsInDim S800000 (![] : Fin 0 → Fin S800000.rank)
  reducesTo_S800000_S_d0 : S800000.ReducesTo [0] S_
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  main_v18

def fn {F : FTy → Type} [FloatOps F] (main_arg0 : FVec F S50000x96 .f32) (main_arg1 : FVec F S800000 .f32) (main_arg2 : FVec F S96x96 .f32) (main_arg3 : FVec F S96 .f32) (main_arg4 : IVec S800000 32) (main_arg5 : IVec S800000 32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S96x96 .f32 := Host.absf main_arg2
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_v13 main_v16
-- ==== Kernel.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S800000x1 : Shape := ⟨2, ![800000, 1]⟩
abbrev S_ : Shape := ⟨0, ![]⟩
abbrev S800000x96 : Shape := ⟨2, ![800000, 96]⟩
abbrev S1x96 : Shape := ⟨2, ![1, 96]⟩
abbrev S5000x96 : Shape := ⟨2, ![5000, 96]⟩

abbrev nBuf : Space → Nat
  | .hbm => 25
  | .vmem => 6
  | .smem => 0
  | _ => 0

abbrev bufTy : (tb : Table) → Fin (tcTables nBuf tb) → BufTy
  | .hbm, ⟨0, _⟩ => ⟨S50000x96, .f32⟩
  | .hbm, ⟨1, _⟩ => ⟨S800000, .f32⟩
  | .hbm, ⟨2, _⟩ => ⟨S96x96, .f32⟩
  | .hbm, ⟨3, _⟩ => ⟨S96, .f32⟩
  | .hbm, ⟨4, _⟩ => ⟨S800000, .i32⟩
  | .hbm, ⟨5, _⟩ => ⟨S800000, .i32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x96, .f32⟩
  | .hbm, ⟨16, _⟩ => ⟨S800000x96, .f32⟩
  | .hbm, ⟨17, _⟩ => ⟨S800000x96, .f32⟩
  | .hbm, ⟨18, _⟩ => ⟨S_, .f32⟩
  | .hbm, ⟨19, _⟩ => ⟨S50000x96, .f32⟩
  | .hbm, ⟨20, _⟩ => ⟨S800000x1, .i32⟩
  | .hbm, ⟨21, _⟩ => ⟨S50000x96, .f32⟩
  | .hbm, ⟨22, _⟩ => ⟨S96x96, .bf16⟩
  | .hbm, ⟨23, _⟩ => ⟨S1x96, .f32⟩
  | .hbm, ⟨24, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S96x96, .bf16⟩
  | .local _ .vmem, ⟨3, _⟩ => ⟨S1x96, .f32⟩
  | .local _ .vmem, ⟨4, _⟩ => ⟨S5000x96, .f32⟩
  | .local _ .vmem, ⟨5, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bitsLt_bf16_f32 : FTy.bits .bf16 < FTy.bits .f32
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .bf16 = 32 ∨ (Rect.block (s := S96x96) S96x96.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x96.size a ≤ S1x96.size a
  hwx0_2 : ∀ i : grid0.Coords, EltTy.bits .f32 = 32 ∨ (Rect.block (s := S1x96) S1x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x96.size a ≤ S50000x96.size a
  hwx0_3 : ∀ i : grid0.Coords, EltTy.bits .f32 = 32 ∨ (Rect.block (s := S50000x96) S5000x96.size (cc0_transform_3 i) (hinb0_3 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf

abbrev win0_0 : Pipeline.Window sig grid0 :=
  Pipeline.Window.ofSpec (Memref.whole main_v12) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x96.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S800000x1 : Shape := ⟨2, ![800000, 1]⟩
abbrev S_ : Shape := ⟨0, ![]⟩
abbrev S800000x96 : Shape := ⟨2, ![800000, 96]⟩
abbrev S1x96 : Shape := ⟨2, ![1, 96]⟩

abbrev nBuf : Space → Nat
  | .hbm => 29
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S800000, .f32⟩
  | .hbm, ⟨2, _⟩ => ⟨S96x96, .f32⟩
  | .hbm, ⟨3, _⟩ => ⟨S96, .f32⟩
  | .hbm, ⟨4, _⟩ => ⟨S800000, .i32⟩
  | .hbm, ⟨5, _⟩ => ⟨S800000, .i32⟩
  | .hbm, ⟨6, _⟩ => ⟨S800000x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x96, .f32⟩
  | .hbm, ⟨16, _⟩ => ⟨S800000x96, .f32⟩
  | .hbm, ⟨17, _⟩ => ⟨S800000x96, .f32⟩
  | .hbm, ⟨18, _⟩ => ⟨S_, .f32⟩
  | .hbm, ⟨19, _⟩ => ⟨S50000x96, .f32⟩
  | .hbm, ⟨20, _⟩ => ⟨S800000x1, .i32⟩
  | .hbm, ⟨21, _⟩ => ⟨S50000x96, .f32⟩
  | .hbm, ⟨22, _⟩ => ⟨S50000x96, .f32⟩
  | .hbm, ⟨23, _⟩ => ⟨S1x96, .f32⟩
  | .hbm, ⟨24, _⟩ => ⟨S50000x96, .f32⟩
  | .hbm, ⟨25, _⟩ => ⟨S50000x96, .f32⟩
  | .hbm, ⟨26, _⟩ => ⟨S_, .f32⟩
  | .hbm, ⟨27, _⟩ => ⟨S50000x96, .f32⟩
  | .hbm, ⟨28, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf

class Facts : Prop extends Facts₀ where

variable [Facts]
-- ==== Proof.Layer.lean ====
/-
  The dense layer of a graph convolution, over the extended reals: for an aggregated feature array
  `h` of 50000 rows by 96 features, a weight matrix `w` of 96 by 96 and a bias `b` of 96 entries,

      layer h w b (r, j) = max (∑ k, h (r, k) · w (k, j) + b j) 0 .

  Row `r` of the result depends on row `r` of `h` alone, on all of `w` and on all of `b`; that is what lets
  a kernel compute it a block of rows at a time. The zero of the `max` is kept as the bit pattern both
  programs print, so it is never evaluated.
-/
import Idealize.ShloMosaic.PureOps.Ideal
import Idealize.ShloMosaic.Lib.ValueIdx

noncomputable section

namespace Cert.DenseLayer

open Idealize.ShloMosaic Idealize.ShloMosaic.ValueIdx

/-- The feature arrays' shape, 50000 nodes by 96 features. -/
abbrev Nodes : Shape := ⟨2, ![50000, 96]⟩
/-- The weight matrix's shape. -/
abbrev Square : Shape := ⟨2, ![96, 96]⟩
/-- The bias vector's shape. -/
abbrev Feat : Shape := ⟨1, ![96]⟩

/-- `relu (h · w + b)` entry by entry: the sum over the 96 contracted features, plus the bias of the
    output feature, clamped below at zero. -/
def layer (h : Nodes.Idx → EReal) (w : Square.Idx → EReal) (b : Feat.Idx → EReal) : Nodes.Idx → EReal :=
  fun i => max ((∑ k : Fin 96, h (ix2 (i 0) k) * w (ix2 k (i 1))) + b (ix1 (i 1))) (Ideal.ofBits .f32 0x00000000#32)

theorem layer_apply (h : Nodes.Idx → EReal) (w : Square.Idx → EReal) (b : Feat.Idx → EReal) (i : Nodes.Idx) :
    layer h w b i = max ((∑ k : Fin 96, h (ix2 (i 0) k) * w (ix2 k (i 1))) + b (ix1 (i 1))) (Ideal.ofBits .f32 0x00000000#32) := rfl

end Cert.DenseLayer

end
-- ==== Proof.KernelBlock.lean ====
/-
  What the kernel's body computes on one block of rows, entry by entry, at the extended reals.

  The body loads a block `x` of 5000 rows of aggregated features, the whole 96 by 96 weight matrix `w`
  and the bias as one row `b` of 96 entries; it changes the features' format (the identity on extended
  reals), multiplies by the weights into a zero accumulator, adds the bias row broadcast along the 5000
  rows, and takes the maximum with zero. At the entry `(p, q)` of the block that is

      max (∑ k, x (p, k) · w (k, q) + b (0, q)) 0 ,

  the dense layer restricted to the block's rows.
-/
import proofs.«151847_j9577777070215_2_alg».proof.Proof.Gen.KernelIdeal.Skeleton
import proofs.«151847_j9577777070215_2_alg».proof.Proof.Layer
import Idealize.ShloMosaic.PureOps.Ideal.Laws
import Idealize.ShloMosaic.Lib.ValueIdx
import Idealize.ShloMosaic.Lib.Pipeline.Value

noncomputable section

namespace Cert.KernelIdeal.Block

open Cert.KernelIdeal Cert.KernelIdeal.Gen Idealize.ShloMosaic Idealize.ShloMosaic.ValueIdx

/-! ## The matrix product's operand indices -/

/-- The left operand's row is the output entry's row. -/
theorem lhs_row (i : S5000x96.Idx) (q : dot_S5000x96_S96x96_S5000x96_1_0_0_1_n_n.contr.Idx) :
    (dot_S5000x96_S96x96_S5000x96_1_0_0_1_n_n.lhsIdx i q 0).val = (i 0).val := by
  unfold DotDims.lhsIdx
  rw [dif_neg (show ¬(0 : Fin S5000x96.rank) ∈ dot_S5000x96_S96x96_S5000x96_1_0_0_1_n_n.lhsBatch by decide),
    dif_pos (show (0 : Fin S5000x96.rank) ∈ dot_S5000x96_S96x96_S5000x96_1_0_0_1_n_n.lhsNonContracting by decide)]
  rfl

/-- The left operand's column is the contraction position. -/
theorem lhs_col (i : S5000x96.Idx) (q : dot_S5000x96_S96x96_S5000x96_1_0_0_1_n_n.contr.Idx) :
    (dot_S5000x96_S96x96_S5000x96_1_0_0_1_n_n.lhsIdx i q 1).val = (q ⟨0, by decide⟩).val :=
  dot_S5000x96_S96x96_S5000x96_1_0_0_1_n_n.lhsIdx_val_of_single rfl i q

/-- The right operand's row is the contraction position. -/
theorem rhs_row (i : S5000x96.Idx) (q : dot_S5000x96_S96x96_S5000x96_1_0_0_1_n_n.contr.Idx) :
    (dot_S5000x96_S96x96_S5000x96_1_0_0_1_n_n.rhsIdx i q 0).val = (q ⟨0, by decide⟩).val :=
  dot_S5000x96_S96x96_S5000x96_1_0_0_1_n_n.rhsIdx_val_of_single rfl i q

/-- The right operand's column is the output entry's column. -/
theorem rhs_col (i : S5000x96.Idx) (q : dot_S5000x96_S96x96_S5000x96_1_0_0_1_n_n.contr.Idx) :
    (dot_S5000x96_S96x96_S5000x96_1_0_0_1_n_n.rhsIdx i q 1).val = (i 1).val := by
  unfold DotDims.rhsIdx
  rw [dif_neg (show ¬(1 : Fin S96x96.rank) ∈ dot_S5000x96_S96x96_S5000x96_1_0_0_1_n_n.rhsBatch by decide),
    dif_pos (show (1 : Fin S96x96.rank) ∈ dot_S5000x96_S96x96_S5000x96_1_0_0_1_n_n.rhsNonContracting by decide)]
  rfl

/-- The product into the zero accumulator, at an entry: the sum over the 96 contracted features. -/
theorem product_entry (a : FVec Ideal S5000x96 .bf16) (w : FVec Ideal S96x96 .bf16) (i : S5000x96.Idx) :
    matmul (F := Ideal) dot_S5000x96_S96x96_S5000x96_1_0_0_1_n_n none a w (constant S5000x96 .f32 0x00000000#32) i
      = ∑ k : Fin 96, a (ix2 (i 0) k) * w (ix2 k (i 1)) := by
  show FloatOps.matmul _ none a w (constant S5000x96 .f32 0x00000000#32) i = _
  rw [Ideal.matmul_constant_zero_apply, ← Equiv.sum_comp (ValueIdx.contrEquiv1 dot_S5000x96_S96x96_S5000x96_1_0_0_1_n_n 96 rfl rfl).symm]
  refine Finset.sum_congr rfl fun k _ => ?_
  have hk := ValueIdx.contrEquiv1_symm_val dot_S5000x96_S96x96_S5000x96_1_0_0_1_n_n 96 rfl rfl k
  have el : dot_S5000x96_S96x96_S5000x96_1_0_0_1_n_n.lhsIdx i ((ValueIdx.contrEquiv1 dot_S5000x96_S96x96_S5000x96_1_0_0_1_n_n 96 rfl rfl).symm k) = ix2 (i 0) k :=
    funext fun d => Fin.ext (by
      match d with
      | ⟨0, _⟩ => exact lhs_row _ _
      | ⟨1, _⟩ => exact (lhs_col _ _).trans hk)
  have er : dot_S5000x96_S96x96_S5000x96_1_0_0_1_n_n.rhsIdx i ((ValueIdx.contrEquiv1 dot_S5000x96_S96x96_S5000x96_1_0_0_1_n_n 96 rfl rfl).symm k) = ix2 k (i 1) :=
    funext fun d => Fin.ext (by
      match d with
      | ⟨0, _⟩ => exact (rhs_row _ _).trans hk
      | ⟨1, _⟩ => exact rhs_col _ _)
  rw [el, er]
  rfl

/-- The bias row broadcast along the block's rows, at an entry: the row's entry in that column. -/
theorem bias_entry (b : FVec Ideal S1x96 .f32) (i : S5000x96.Idx) :
    broadcastTo S5000x96 b broadcasts_S1x96_S5000x96 i = b (ix2 0 (i 1)) :=
  broadcastTo_apply b broadcasts_S1x96_S5000x96 i (ix2 0 (i 1)) (fun d => by
    match d with
    | ⟨0, _⟩ => show (0 : Nat) = if (1 : Nat) = 1 then 0 else _; rw [if_pos rfl]
    | ⟨1, _⟩ => show (i 1).val = if (96 : Nat) = 1 then 0 else (i 1).val; rw [if_neg (by decide)])

/-! ## The body's stored value -/

/-- The value the body stores, at an entry of the block. -/
theorem stored_entry (x : Vec Ideal S5000x96 .f32) (w : Vec Ideal S96x96 .bf16) (b : Vec Ideal S1x96 .f32) (i : S5000x96.Idx) :
    k0_pay1 (F := Ideal) x w b i
      = max ((∑ k : Fin 96, x (ix2 (i 0) k) * w (ix2 k (i 1))) + b (ix2 0 (i 1))) (Ideal.ofBits .f32 0x00000000#32) := by
  unfold k0_pay1
  simp only [shapeCast_self]
  show max (matmul (F := Ideal) dot_S5000x96_S96x96_S5000x96_1_0_0_1_n_n none (truncf .bf16 x bitsLt_bf16_f32) w (constant S5000x96 .f32 0x00000000#32) i
      + broadcastTo S5000x96 b broadcasts_S1x96_S5000x96 i) (Ideal.ofBits .f32 0x00000000#32) = _
  rw [product_entry, bias_entry]
  rfl

/-- So a block `x` whose row `y 0` is row `i 0` of an array `H`, with weights `w` that are `W` in column `i 1` and a bias
    row `b` that is `B` there, stores at `y` the dense layer of `H`, `W` and `B`'s one row at entry `i`. -/
theorem stored_of (x : Vec Ideal S5000x96 .f32) (w : Vec Ideal S96x96 .bf16) (b : Vec Ideal S1x96 .f32)
    (H : S50000x96.Idx → EReal) (W : S96x96.Idx → EReal) (B : S1x96.Idx → EReal) (y : S5000x96.Idx) (i : S50000x96.Idx)
    (hx : ∀ k : Fin 96, x (ix2 (y 0) k) = H (ix2 (i 0) k)) (hw : ∀ k : Fin 96, w (ix2 k (y 1)) = W (ix2 k (i 1)))
    (hb : b (ix2 0 (y 1)) = B (ix2 0 (i 1))) :
    k0_pay1 (F := Ideal) x w b y = Cert.DenseLayer.layer H W (fun q => B (ix2 0 (q 0))) i := by
  rw [stored_entry, Cert.DenseLayer.layer_apply, Finset.sum_congr rfl (fun k _ => by rw [hx k, hw k]), hb]

end Cert.KernelIdeal.Block

end
-- ==== Proof.KernelArray.lean ====
/-
  From blocks of rows to the whole result array.

  The kernel's grid has ten points. At point `t` the region stages rows `5000·t … 5000·t + 4999` of the
  aggregated features, the whole weight matrix and the whole bias row, runs the body on them, and writes
  what the body stored back to rows `5000·t … 5000·t + 4999` of the result. Since row `r` of the dense
  layer depends on row `r` of the features alone, what point `t` writes back is block `t` of the dense
  layer of the WHOLE arrays the region finds; the ten blocks tile the 50000 rows (row `r` lies in block
  `r / 5000`), so after the last point the result array is that dense layer.

  The reads through a window's block are stated first for an ARBITRARY array of the window's shape, and
  only then used at the arrays the region finds: which entry a block's entry is does not depend on
  what the array holds.
-/
import proofs.«151847_j9577777070215_2_alg».proof.Proof.Gen.KernelIdeal.Value
import proofs.«151847_j9577777070215_2_alg».proof.Proof.KernelBlock
import proofs.«151847_j9577777070215_2_alg».proof.Proof.Layer

noncomputable section

namespace Cert.KernelIdeal.Rows

open Cert.KernelIdeal Cert.KernelIdeal.Gen Cert.KernelIdeal.Value Idealize.ShloMosaic Idealize.ShloMosaic.TcCoe Idealize.SL.Sem
open Idealize.ShloMosaic.ValueIdx Cert.DenseLayer
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- Which block each window stages at point `t`: block `t` of rows for the features and for the result,
    the one whole block for the weights and for the bias row. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## A window's block read off an arbitrary array -/

/-- Entry `y` of block `t` of a features-shaped array is the array's entry `5000·t` rows further down. -/
theorem rows_of (A : S50000x96.Idx → EReal) (t : Fin cfg0.N) (y : S5000x96.Idx) (i : S50000x96.Idx)
    (h0 : (i 0).val = t.val * 5000 + (y 0).val) (h1 : (i 1).val = (y 1).val) :
    ((cfg0.win 0).blk t).view.read (Elt Ideal) A y = A i := by
  obtain ⟨e0, e1, -⟩ := block_indices t
  rw [View.read_apply]
  show A _ = A i
  refine congrArg A (funext fun a => Fin.ext ?_)
  match a with
  | ⟨0, _⟩ => show win0_0.index t (0 : Fin 2) * 5000 + 1 * (y 0).val = (i 0).val; rw [e0, h0]; omega
  | ⟨1, _⟩ => show win0_0.index t (1 : Fin 2) * 96 + 1 * (y 1).val = (i 1).val; rw [e1, h1]; omega

/-- The weights' one block is the whole matrix. -/
theorem matrix_of (A : S96x96.Idx → EReal) (t : Fin cfg0.N) (y i : S96x96.Idx)
    (h0 : (i 0).val = (y 0).val) (h1 : (i 1).val = (y 1).val) :
    ((cfg0.win 1).blk t).view.read (Elt Ideal) A y = A i := by
  obtain ⟨-, -, e0, e1, -⟩ := block_indices t
  rw [View.read_apply]
  show A _ = A i
  refine congrArg A (funext fun a => Fin.ext ?_)
  match a with
  | ⟨0, _⟩ => show win0_1.index t (0 : Fin 2) * 96 + 1 * (y 0).val = (i 0).val; rw [e0, h0]; omega
  | ⟨1, _⟩ => show win0_1.index t (1 : Fin 2) * 96 + 1 * (y 1).val = (i 1).val; rw [e1, h1]; omega

/-- The bias' one block is the whole row. -/
theorem row_of (A : S1x96.Idx → EReal) (t : Fin cfg0.N) (y i : S1x96.Idx)
    (h0 : (i 0).val = (y 0).val) (h1 : (i 1).val = (y 1).val) :
    ((cfg0.win 2).blk t).view.read (Elt Ideal) A y = A i := by
  obtain ⟨-, -, -, -, e0, e1, -⟩ := block_indices t
  rw [View.read_apply]
  show A _ = A i
  refine congrArg A (funext fun a => Fin.ext ?_)
  match a with
  | ⟨0, _⟩ => show win0_2.index t (0 : Fin 2) * 1 + 1 * (y 0).val = (i 0).val; rw [e0, h0]; omega
  | ⟨1, _⟩ => show win0_2.index t (1 : Fin 2) * 96 + 1 * (y 1).val = (i 1).val; rw [e1, h1]; omega

/-- A block `X` of 5000 rows whose every entry is the entry of `A` `5000·t` rows further down IS block `t` of
    `A` as the result window reads it. -/
theorem written_of (X : S5000x96.Idx → EReal) (A : S50000x96.Idx → EReal) (t : Fin cfg0.N)
    (h : ∀ (y : S5000x96.Idx) (i : S50000x96.Idx), (i 0).val = t.val * 5000 + (y 0).val → (i 1).val = (y 1).val → X y = A i) :
    (cfg0.win 3).cut (grid0.coords t) X = ((cfg0.win 3).blk t).view.read (Elt Ideal) A := by
  obtain ⟨-, -, -, -, -, -, e0, e1⟩ := block_indices t
  funext j
  rw [View.read_apply]
  show X j = A _
  refine h j _ ?_ ?_
  · show win0_3.index t (0 : Fin 2) * 5000 + 1 * (j 0).val = t.val * 5000 + (j 0).val; rw [e0]; omega
  · show win0_3.index t (1 : Fin 2) * 96 + 1 * (j 1).val = (j 1).val; rw [e1]; omega

/-! ## The arrays the region finds -/

/-- The windows' arrays, named by window, are the buffers the program's text names. -/
theorem features_ref (c : Dev nD) : V m c (Pipeline.arrRef spec0 0) = V m c main_v12 := rfl
theorem weights_ref (c : Dev nD) : V m c (Pipeline.arrRef spec0 1) = V m c main_v13 := rfl
theorem bias_ref (c : Dev nD) : V m c (Pipeline.arrRef spec0 2) = V m c main_v14 := rfl

/-- The dense layer of the three arrays as the region finds them (the bias row read along its one row). -/
noncomputable def found (c : Dev nD) : S50000x96.Idx → EReal :=
  layer (V m c main_v12) (V m c main_v13) (fun q => (V m c main_v14 : S1x96.Idx → EReal) (ix2 0 (q 0)))

theorem features_block (c : Dev nD) (t : Fin cfg0.N) (y : S5000x96.Idx) (i : S50000x96.Idx)
    (h0 : (i 0).val = t.val * 5000 + (y 0).val) (h1 : (i 1).val = (y 1).val) :
    (iblk m c 0 t : Vec Ideal S5000x96 .f32) y = (V m c main_v12 : S50000x96.Idx → EReal) i := by
  unfold iblk
  exact (rows_of (V m c (Pipeline.arrRef spec0 0)) t y i h0 h1).trans (congrFun (features_ref m c) i)

theorem weights_block (c : Dev nD) (t : Fin cfg0.N) (y i : S96x96.Idx)
    (h0 : (i 0).val = (y 0).val) (h1 : (i 1).val = (y 1).val) :
    (iblk m c 1 t : Vec Ideal S96x96 .bf16) y = (V m c main_v13 : S96x96.Idx → EReal) i := by
  unfold iblk
  exact (matrix_of (V m c (Pipeline.arrRef spec0 1)) t y i h0 h1).trans (congrFun (weights_ref m c) i)

theorem bias_block (c : Dev nD) (t : Fin cfg0.N) (y i : S1x96.Idx)
    (h0 : (i 0).val = (y 0).val) (h1 : (i 1).val = (y 1).val) :
    (iblk m c 2 t : Vec Ideal S1x96 .f32) y = (V m c main_v14 : S1x96.Idx → EReal) i := by
  unfold iblk
  exact (row_of (V m c (Pipeline.arrRef spec0 2)) t y i h0 h1).trans (congrFun (bias_ref m c) i)

/-! ## What a point writes, and the array after the last point -/

/-- What the body stores at entry `y` of point `t`'s block is the dense layer of the arrays the region
    finds, at the entry `5000·t` rows further down: the row of features it sums over is that row of the
    array, the weights and the bias are the whole arrays. -/
theorem stored_is_layer (c : Dev nD) (t : Fin cfg0.N) (y : S5000x96.Idx) (i : S50000x96.Idx)
    (h0 : (i 0).val = t.val * 5000 + (y 0).val) (h1 : (i 1).val = (y 1).val) :
    k0_pay1 (F := Ideal) (iblk m c 0 t) (iblk m c 1 t) (iblk m c 2 t) y = found m c i := by
  unfold found
  exact Block.stored_of (iblk m c 0 t) (iblk m c 1 t) (iblk m c 2 t) (V m c main_v12) (V m c main_v13) (V m c main_v14) y i
    (fun k => features_block m c t (ix2 (y 0) k) (ix2 (i 0) k) h0 rfl)
    (fun k => weights_block m c t (ix2 k (y 1)) (ix2 k (i 1)) rfl h1)
    (bias_block m c t (ix2 0 (y 1)) (ix2 0 (i 1)) rfl h1)

/-- WHAT POINT `t` WRITES BACK is block `t` of the dense layer of the arrays the region finds. -/
theorem written_block (c : Dev nD) (t : Fin cfg0.N) :
    (dats m 0 c).flushed 3 t = ((cfg0.win 3).blk t).view.read (Elt Ideal) (found m c) := by
  rw [flushed3]
  unfold out0_3
  rw [View.canon_unit_zero origin]
  simp only [View.ld_unit_zero (S := S5000x96) origin, View.ld_unit_zero (S := S96x96) origin, View.ld_unit_zero (S := S1x96) origin]
  exact written_of (k0_pay1 (F := Ideal) (iblk m c 0 t) (iblk m c 1 t) (iblk m c 2 t)) (found m c) t
    (fun y i h0 h1 => stored_is_layer m c t y i h0 h1)

/-- An index of the result array is in point `t`'s block iff each coordinate is in the block's range. -/
theorem mem_block (t : Fin cfg0.N) (i : S50000x96.Idx) :
    i ∈ ((cfg0.win 3).blk t).view.set ↔ ∀ a : Fin 2, win0_3.index t a * S5000x96.size a ≤ (i a).val ∧ (i a).val < win0_3.index t a * S5000x96.size a + S5000x96.size a := by
  show i ∈ ((View.whole main_v15).slice (win0_3.rect t)).set ↔ _
  rw [View.set_slice_whole, Rect.mem_set_unit]
  exact Iff.rfl

/-- Every one of the ten row blocks is some point's. -/
theorem block_of_row : ∀ q : Fin 10, ∃ t : Fin cfg0.N, t.val = q.val :=
  (by decide +kernel : ∀ q : Fin 10, ∃ t : Fin grid0.N, t.val = q.val)

/-- THE RESULT ARRAY after the run is the dense layer of the arrays the region finds: row `r` is written
    by point `r / 5000`. -/
theorem result_array (c : Dev nD) : (dats m 0 c).arrAt 3 cfg0.N = found m c :=
  (dats m 0 c).arrAt_eq_of_cover 3 (found m c) (fun t _ => written_block m c t) fun i => by
    have hi0 : (i 0).val < 50000 := (i 0).isLt
    have hi1 : (i 1).val < 96 := (i 1).isLt
    obtain ⟨t, ht⟩ := block_of_row ⟨(i 0).val / 5000, by omega⟩
    obtain ⟨-, -, -, -, -, -, e0, e1⟩ := block_indices t
    refine ⟨t, flush0_3 t, ?_⟩
    rw [mem_block]
    intro a
    match a with
    | ⟨0, _⟩ => show win0_3.index t (0 : Fin 2) * 5000 ≤ (i 0).val ∧ (i 0).val < win0_3.index t (0 : Fin 2) * 5000 + 5000; rw [e0]; simp only at ht; omega
    | ⟨1, _⟩ => show win0_3.index t (1 : Fin 2) * 96 ≤ (i 1).val ∧ (i 1).val < win0_3.index t (1 : Fin 2) * 96 + 96; rw [e1]; omega

/-- The kernel's run, read: the result array at the dense layer of what the region finds, the arguments unchanged. -/
theorem run : θ_run defs (onTc (τ := τ) (main (F := Ideal))) ⟨m, fun _ => 0, ρ⟩ fun r => ∀ c : Dev nD,
      r.2.mem ((c : Thread nD τ).loc main_v15) = found m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (result_array m c), (h c).2⟩) (run_blocks m ρ)

end Cert.KernelIdeal.Rows

end
-- ==== Proof.KernelHost.lean ====
/-
  What the kernel's one region finds in the three arrays it reads, as functions of the program's
  arguments. Before the region the program

    * gathers the source node's features for each edge, scales them by the edge's weight and adds
      them into the destination node's row (`aggregated`: the array of 50000 rows the region reads a
      block of rows at a time);
    * changes the weights' format, which on extended reals is the identity;
    * lays the 96 bias entries out as one row.
-/
import proofs.«151847_j9577777070215_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

/-- The aggregated features: for every edge the source node's feature row (the source index taken
    modulo the node count when negative) scaled by the edge weight, added into the destination
    node's row of an array of zeros. -/
def aggregated (x : (⟨S50000x96, .f32⟩ : BufTy).Contents (Elt Ideal)) (ew : (⟨S800000, .f32⟩ : BufTy).Contents (Elt Ideal))
    (dst src : (⟨S800000, .i32⟩ : BufTy).Contents (Elt Ideal)) : (⟨S50000x96, .f32⟩ : BufTy).Contents (Elt Ideal) :=
  Host.scatterAdd (F := Ideal) scatter_S50000x96_S800000x1_S800000x96_1_0_0_1
    (broadcastInDim S50000x96 ![] bcast_S_S50000x96 (constant (F := Ideal) S_ .f32 0x00000000#32))
    (broadcastInDim S800000x1 ![0] bcast_S800000_S800000x1_0 dst)
    (mulf (broadcastInDim S800000x96 ![0, 1] bcast_S800000x1_S800000x96_0_1 (broadcastInDim S800000x1 ![0] bcast_S800000_S800000x1_0 ew))
      (Host.gather gather_S50000x96_S800000x1_S800000x96_1_0_n_n_0_1_196 x
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))

variable (m : (ℓ : Loc nD τ sig) → Buf (Elt Ideal) ℓ)

/-- The region's first array is the aggregated features of the arguments. -/
theorem found_features (c : Dev nD) :
    (V m c main_v12 : S50000x96.Idx → EReal)
      = aggregated (m ((c : Thread nD τ).loc main_arg0)) (m ((c : Thread nD τ).loc main_arg1))
          (m ((c : Thread nD τ).loc main_arg4)) (m ((c : Thread nD τ).loc main_arg5)) := by
  dsimp only [Gen.V, Gen.hostOps0]
  after_results
  rfl

/-- The region's second array is the weight matrix. -/
theorem found_weights (c : Dev nD) :
    (V m c main_v13 : S96x96.Idx → EReal) = m ((c : Thread nD τ).loc main_arg2) := by
  dsimp only [Gen.V, Gen.hostOps0]
  after_results
  rfl

/-- The region's third array is the bias as one row: its entry `(0, q)` is the bias of feature `q`. -/
theorem found_bias (c : Dev nD) (q : Fin 96) :
    (V m c main_v14 : S1x96.Idx → EReal) (ix2 0 q) = (m ((c : Thread nD τ).loc main_arg3) : S96.Idx → EReal) (ix1 q) := by
  have e : (V m c main_v14 : S1x96.Idx → EReal) = shapeCast S1x96 (m ((c : Thread nD τ).loc main_arg3) : S96.Idx → EReal) shapeCasts_S96_S1x96 := by
    dsimp only [Gen.V, Gen.hostOps0]
    after_results
    rfl
  rw [e]
  exact shapeCast_apply _ shapeCasts_S96_S1x96 (ix2 0 q) (ix1 q) (by
    rw [Shape.rowMajor_val_one, Shape.rowMajor_val_two]
    show q.val = 0 * 96 + q.val
    omega)

end Cert.KernelIdeal.Host

end
-- ==== Proof.KernelResult.lean ====
/-
  The kernel's result array as a function of the program's arguments: the dense layer of the
  aggregated features, the weight matrix and the bias. (The region finds the aggregated features in its
  first array, the weights — after a change of format that is the identity on extended reals — in its
  second, and the bias laid out as one row in its third.)
-/
import proofs.«151847_j9577777070215_2_alg».proof.Proof.KernelArray
import proofs.«151847_j9577777070215_2_alg».proof.Proof.KernelHost

noncomputable section

namespace Cert.KernelIdeal.Result

open Cert.KernelIdeal Cert.KernelIdeal.Gen Idealize.ShloMosaic Idealize.ShloMosaic.TcCoe Idealize.SL.Sem
open Idealize.ShloMosaic.ValueIdx Cert.DenseLayer

variable (m : (ℓ : Loc nD τ sig) → Buf (Elt Ideal) ℓ) (ρ : Dev nD → PrngReg)

/-- The bias row the region finds, read along its one row, is the bias argument. -/
theorem bias_row (c : Dev nD) :
    (fun q : Feat.Idx => (V m c main_v14 : S1x96.Idx → EReal) (ix2 0 (q 0))) = (m ((c : Thread nD τ).loc main_arg3) : S96.Idx → EReal) :=
  funext fun q => (Host.found_bias m c (q 0)).trans (congrArg (m ((c : Thread nD τ).loc main_arg3) : S96.Idx → EReal) (eq_ix1 q).symm)

/-- The dense layer of what the region finds is the dense layer of the arguments' aggregated features,
    weights and bias. -/
theorem found_eq (c : Dev nD) :
    Rows.found m c = layer (Host.aggregated (m ((c : Thread nD τ).loc main_arg0)) (m ((c : Thread nD τ).loc main_arg1))
        (m ((c : Thread nD τ).loc main_arg4)) (m ((c : Thread nD τ).loc main_arg5)))
      (m ((c : Thread nD τ).loc main_arg2)) (m ((c : Thread nD τ).loc main_arg3)) := by
  unfold Rows.found
  rw [bias_row m c, Host.found_features m c, Host.found_weights m c]

/-- The kernel's run: the result array is the dense layer of the arguments' aggregated features. -/
theorem run : θ_run defs (onTc (τ := τ) (main (F := Ideal))) ⟨m, fun _ => 0, ρ⟩ fun r => ∀ c : Dev nD,
      r.2.mem ((c : Thread nD τ).loc main_v15)
        = layer (Host.aggregated (m ((c : Thread nD τ).loc main_arg0)) (m ((c : Thread nD τ).loc main_arg1))
            (m ((c : Thread nD τ).loc main_arg4)) (m ((c : Thread nD τ).loc main_arg5)))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (found_eq m c), (h c).2⟩) (Rows.run m ρ)

end Cert.KernelIdeal.Result

end
-- ==== Proof.RefLayer.lean ====
/-
  The reference program's result is the dense layer of its own aggregated features: after the
  gather, the scaling by the edge weights and the scatter-add (whose array is left whole here, as
  `val_main_v12`), the reference forms `dot_general` with the weights, adds the bias broadcast along
  the rows, and takes the maximum with zero. Read at an entry `(r, j)` that is
  `max (∑ k, H (r, k) · W (k, j) + b j) 0`.
-/
import proofs.«151847_j9577777070215_2_alg».proof.Proof.Gen.ReferenceIdeal.Read
import proofs.«151847_j9577777070215_2_alg».proof.Proof.Layer

noncomputable section

namespace Cert.ReferenceIdeal.RefValue

open Cert.ReferenceIdeal Cert.ReferenceIdeal.Read Idealize.ShloMosaic Idealize.ShloMosaic.ValueIdx Cert.DenseLayer

/-- The left operand of the product at entry `i` and contraction position `k` is read at `(i 0, k)`. -/
theorem lidx_eq (i : S50000x96.Idx) (k : Fin 96) : lidx_main_v13 i k = ix2 (i 0) k :=
  funext fun a => by match a with | ⟨0, _⟩ => rfl | ⟨1, _⟩ => rfl

/-- The right operand is read at `(k, i 1)`. -/
theorem ridx_eq (i : S50000x96.Idx) (k : Fin 96) : ridx_main_v13 i k = ix2 k (i 1) :=
  funext fun a => by match a with | ⟨0, _⟩ => rfl | ⟨1, _⟩ => rfl

/-- The bias, broadcast to one row and then to every row, is read at the entry's column. -/
theorem bidx_eq (i : S50000x96.Idx) : idx_main_v14 (idx_main_v15 i) = ix1 (i 1) :=
  funext fun a => by match a with | ⟨0, _⟩ => rfl

/-- The reference's result array is the dense layer of the scatter-add's array, the weights and the bias. -/
theorem result_eq (x0 : (⟨S50000x96, .f32⟩ : BufTy).Contents (Elt Ideal)) (x1 : (⟨S800000, .f32⟩ : BufTy).Contents (Elt Ideal))
    (x2 : (⟨S96x96, .f32⟩ : BufTy).Contents (Elt Ideal)) (x3 : (⟨S96, .f32⟩ : BufTy).Contents (Elt Ideal))
    (x4 x5 : (⟨S800000, .i32⟩ : BufTy).Contents (Elt Ideal)) :
    val_main_v17 (F := Ideal) x0 x1 x2 x3 x4 x5 = layer (val_main_v12 (F := Ideal) x0 x1 x4 x5) x2 x3 := by
  funext i
  rw [val_main_v17_apply, val_main_v16_apply, val_main_v13_apply, val_main_v15_apply, val_main_v14_apply,
    val_main_call0_v0_apply, val_main_call0_cst_apply, layer_apply]
  simp only [lidx_eq, ridx_eq, bidx_eq, Ideal.maximumf_def, Ideal.addf_def, Ideal.ofBits_def]
  rfl

end Cert.ReferenceIdeal.RefValue

end
-- ==== Proof.lean ====
/-
  The certificate of a graph-convolution layer against its reference, at the extended reals.

  Both programs first aggregate neighbour features on the host: for each of the 800000 edges the
  source node's 96 features are gathered, scaled by the edge weight, and added into the destination
  node's row (a scatter-add into zeros). These operations are the same in both programs, so the
  aggregated array `H` is one function of the arguments (`aggregated_same`), and is never opened.

  Then the reference computes `relu (H · W + b)` in one piece (a `dot_general`, the bias broadcast along
  the rows, a maximum with zero), while the kernel computes it ten blocks of 5000 rows at a time, each
  block a matrix product of the block's rows (in a narrower format, which on extended reals is the same
  number) with the whole of `W`, plus the bias row, clamped at zero. Row `r` of `relu (H · W + b)` depends on
  row `r` of `H` alone, so the ten blocks put together are the reference's array: entry `(r, j)` is
  `max (∑ k, H (r, k) · W (k, j) + b j) 0` on both sides, the same sum in the same order. No law of
  arithmetic is needed beyond that, so the inputs' finiteness is not used.

  The frames of the kernel's two readings are the generated ones; the reference's is its generated run
  with the result forgotten; the idealization rewrote nothing, so it preserves trivially.
-/
import proofs.«151847_j9577777070215_2_alg».proof.Defs
import proofs.«151847_j9577777070215_2_alg».proof.Proof.Gen.Kernel
import proofs.«151847_j9577777070215_2_alg».proof.Proof.Gen.Kernel.Skeleton
import proofs.«151847_j9577777070215_2_alg».proof.Proof.Gen.Kernel.Launch
import proofs.«151847_j9577777070215_2_alg».proof.Proof.Gen.Kernel.Points
import proofs.«151847_j9577777070215_2_alg».proof.Proof.Gen.Kernel.Frame
import proofs.«151847_j9577777070215_2_alg».proof.Proof.Gen.KernelIdeal
import proofs.«151847_j9577777070215_2_alg».proof.Proof.Gen.KernelIdeal.Skeleton
import proofs.«151847_j9577777070215_2_alg».proof.Proof.Gen.KernelIdeal.Launch
import proofs.«151847_j9577777070215_2_alg».proof.Proof.Gen.KernelIdeal.Points
import proofs.«151847_j9577777070215_2_alg».proof.Proof.Gen.KernelIdeal.Frame
import proofs.«151847_j9577777070215_2_alg».proof.Proof.Gen.ReferenceIdeal
import proofs.«151847_j9577777070215_2_alg».proof.Proof.Gen.Pre_finite_inputs
import proofs.«151847_j9577777070215_2_alg».proof.Proof.Gen.KernelIdeal.Value
import proofs.«151847_j9577777070215_2_alg».proof.Proof.Gen.ReferenceIdeal.Run
import proofs.«151847_j9577777070215_2_alg».proof.Proof.Gen.ReferenceIdeal.Read
import proofs.«151847_j9577777070215_2_alg».proof.Proof.KernelResult
import proofs.«151847_j9577777070215_2_alg».proof.Proof.RefLayer
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's generated run, its result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The aggregation of neighbour features is the same composition of the same host operations in both
    programs. -/
theorem aggregated_same (x0 : (⟨Cert.KernelIdeal.S50000x96, .f32⟩ : BufTy).Contents (Elt Ideal))
    (x1 : (⟨Cert.KernelIdeal.S800000, .f32⟩ : BufTy).Contents (Elt Ideal))
    (x4 x5 : (⟨Cert.KernelIdeal.S800000, .i32⟩ : BufTy).Contents (Elt Ideal)) :
    Cert.ReferenceIdeal.Read.val_main_v12 (F := Ideal) x0 x1 x4 x5 = Cert.KernelIdeal.Host.aggregated x0 x1 x4 x5 := rfl

/-- Both programs end with the dense layer of the same aggregated features, weights and bias. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v17_eq _ _ _ _ _ _).trans
    ((Cert.ReferenceIdeal.RefValue.result_eq _ _ _ _ _ _).trans
      (congrArg (fun h => Cert.DenseLayer.layer h _ _) (aggregated_same _ _ _ _)))

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
